-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x512 .f32) (main_arg1 : FVec F S512x512 .f32) (main_arg2 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S5000x512 : Shape := ⟨2, ![5000, 512]⟩

abbrev nBuf : Space → Nat
  | .hbm => 5
  | .vmem => 8
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S50000x512, .f32⟩
  | .local _ .vmem, ⟨0, _⟩ => ⟨S5000x512, .f32⟩
  | .local _ .vmem, ⟨1, _⟩ => ⟨S5000x512, .f32⟩
  | .local _ .vmem, ⟨2, _⟩ => ⟨S512x512, .f32⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | .local _ .vmem, ⟨6, _⟩ => ⟨S5000x512, .bf16⟩
  | .local _ .vmem, ⟨7, _⟩ => ⟨S512x512, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  shapeCasts_S5000x512_S5000x512 : S5000x512.ShapeCasts S5000x512
  packedbf16_S5000x512_S5000x512_0_0 : (Rect.unit (s := S5000x512) ![0, 0] S5000x512.size inb_S5000x512_S5000x512_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  dot_S5000x512_S512x512_S5000x512_1_1_0_0_n_n_wf : DotDims.WF S5000x512 S512x512 S5000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)

variable [Facts₀]

def dot_S5000x512_S512x512_S5000x512_1_1_0_0_n_n : DotDims S5000x512 S512x512 S5000x512 where
  lhsContracting := [1]
  rhsContracting := [1]
  lhsNonContracting := [0]
  rhsNonContracting := [0]
  lhsBatch := []
  rhsBatch := []
  wf := dot_S5000x512_S512x512_S5000x512_1_1_0_0_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S50000x512, .f32⟩
  | .hbm, ⟨5, _⟩ => ⟨S1x512, .f32⟩
  | .hbm, ⟨6, _⟩ => ⟨S50000x512, .f32⟩
  | .hbm, ⟨7, _⟩ => ⟨S50000x512, .f32⟩
  | .hbm, ⟨8, _⟩ => ⟨S_, .f32⟩
  | .hbm, ⟨9, _⟩ => ⟨S50000x512, .f32⟩
  | .hbm, ⟨10, _⟩ => ⟨S50000x512, .f32⟩
  | .hbm, ⟨11, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  dot_S50000x512_S512x512_S50000x512_1_0_0_1_n_n_wf : DotDims.WF S50000x512 S512x512 S50000x512 [1] [0] [0] [1] [] []

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.Spec.lean ====
/-
  The residual linear layer  y = x + c · (x · Wᵀ + b)  on the extended reals, entry by entry:

      y (p, q) = x (p, q) + c · ((∑ k, x (p, k) · W (q, k)) + b q),

  with x of 50000 rows and 512 columns, W square of order 512, b a vector of 512 entries, and c the single-precision
  number nearest to one tenth. A second way to compute the same entry adds the two scaled terms one after the other,

      (x (p, q) + c · ∑ k, x (p, k) · W (q, k)) + c · b q.

  The two agree for EVERY extended real row product and bias: c is a nonnegative real number, and multiplication by a
  nonnegative real distributes over any sum of extended reals (an infinite summand keeps its sign, and opposite
  infinities add to -∞ on both sides); the rest is associativity of addition. No finiteness of x, W or b is used.
-/
import Idealize.ShloMosaic.Lib.ValueIdx
import Idealize.ShloMosaic.PureOps.Ideal

noncomputable section

open scoped BigOperators

namespace ResidualLinear

open Idealize.ShloMosaic Idealize.ShloMosaic.ValueIdx

/-- The scale c: what the single-precision pattern 0x3DCCCCCD denotes. -/
abbrev tenth : EReal := Ideal.ofBits .f32 0x3DCCCCCD#32

/-- c is the real number 13421773 · 2⁻²⁷ (sign +, exponent field 123, significand 2²³ + 5033165). -/
theorem tenth_eq : tenth = (((13421773 : ℝ) * (2 : ℝ) ^ (-27 : ℤ) : ℝ) : EReal) := by
  simp [tenth, Ideal.ofBits, Ideal.ieee, -EReal.coe_mul]

theorem tenth_nonneg : 0 ≤ tenth := by
  rw [tenth_eq]; exact EReal.coe_nonneg.mpr (by positivity)

theorem tenth_ne_top : tenth ≠ ⊤ := by
  rw [tenth_eq]; exact EReal.coe_ne_top _

/-- Adding c · s and then c · t is adding c · (s + t), for all extended reals a, s, t. -/
theorem scaled_twice (a s t : EReal) : (a + tenth * s) + tenth * t = a + tenth * (s + t) := by
  rw [EReal.left_distrib_of_nonneg_of_ne_top tenth_nonneg tenth_ne_top, add_assoc]

/-- Row p of x against row q of W: entry (p, q) of x · Wᵀ. -/
def rowDot (x : (⟨2, ![50000, 512]⟩ : Shape).Idx → EReal) (W : (⟨2, ![512, 512]⟩ : Shape).Idx → EReal)
    (p : Fin 50000) (q : Fin 512) : EReal :=
  ∑ k : Fin 512, x (ix2 p k) * W (ix2 q k)

/-- The layer's output as one function of the three arrays. -/
def layer (x : (⟨2, ![50000, 512]⟩ : Shape).Idx → EReal) (W : (⟨2, ![512, 512]⟩ : Shape).Idx → EReal)
    (b : (⟨1, ![512]⟩ : Shape).Idx → EReal) : (⟨2, ![50000, 512]⟩ : Shape).Idx → EReal :=
  fun i => x i + tenth * (rowDot x W (i 0) (i 1) + b (ix1 (i 1)))

theorem layer_apply (x : (⟨2, ![50000, 512]⟩ : Shape).Idx → EReal) (W : (⟨2, ![512, 512]⟩ : Shape).Idx → EReal)
    (b : (⟨1, ![512]⟩ : Shape).Idx → EReal) (p : Fin 50000) (q : Fin 512) :
    layer x W b (ix2 p q) = x (ix2 p q) + tenth * ((∑ k : Fin 512, x (ix2 p k) * W (ix2 q k)) + b (ix1 q)) := rfl

/-- A block of rows seen from inside: if row p of a block X is row r of x, the block's copy of the weight is W at row
    q, and the bias row B holds b q at column q, then the entry computed the second way from the block is the
    layer's entry (r, q). -/
theorem layer_of_block (X : (⟨2, ![5000, 512]⟩ : Shape).Idx → EReal) (Wc : (⟨2, ![512, 512]⟩ : Shape).Idx → EReal)
    (B : (⟨2, ![1, 512]⟩ : Shape).Idx → EReal)
    (x : (⟨2, ![50000, 512]⟩ : Shape).Idx → EReal) (W : (⟨2, ![512, 512]⟩ : Shape).Idx → EReal)
    (b : (⟨1, ![512]⟩ : Shape).Idx → EReal) (p : Fin 5000) (q : Fin 512) (r : Fin 50000)
    (hX : ∀ k : Fin 512, X (ix2 p k) = x (ix2 r k)) (hW : ∀ k : Fin 512, Wc (ix2 q k) = W (ix2 q k))
    (hB : B (ix2 (0 : Fin 1) q) = b (ix1 q)) :
    (X (ix2 p q) + tenth * ∑ k : Fin 512, X (ix2 p k) * Wc (ix2 q k)) + tenth * B (ix2 (0 : Fin 1) q)
      = layer x W b (ix2 r q) := by
  rw [layer_apply, ← scaled_twice, hX q, hB]
  exact congrArg (fun s => x (ix2 r q) + tenth * s + tenth * b (ix1 q))
    (Finset.sum_congr rfl fun k _ => by rw [hX k, hW k])

end ResidualLinear

end
-- ==== Proof.RefSide.lean ====
/-
  The reference program, read entry by entry: its last stage at (p, q) is
      x (p, q) + c · ((∑ k, x (p, k) · Wᵀ (k, q)) + b q),
  and the transposed weight read at (k, q) is W (q, k); the bias reaches every row through two broadcasts that keep
  the column. So the reference computes the layer of Spec.lean.
-/
import proofs.«175830_g12850542150405_cont_fleet_1523_13_alg».proof.Proof.Gen.ReferenceIdeal.Read
import proofs.«175830_g12850542150405_cont_fleet_1523_13_alg».proof.Proof.Spec

noncomputable section

open scoped BigOperators

namespace Cert.ReferenceIdeal.RefValue

open Cert.ReferenceIdeal Cert.ReferenceIdeal.Read Idealize.ShloMosaic Idealize.ShloMosaic.ValueIdx ResidualLinear

/-- The left operand of the product is read in row p, column k. -/
theorem lidx_eq (p : Fin 50000) (q k : Fin 512) : lidx_main_v1 (ix2 p q) k = ix2 p k :=
  funext fun a => Fin.ext (by match a with | ⟨0, _⟩ => rfl | ⟨1, _⟩ => rfl)

/-- The transposed weight at (k, q) is the weight at (q, k). -/
theorem ridx_eq (p : Fin 50000) (q k : Fin 512) : idx_main_v0 (ridx_main_v1 (ix2 p q) k) = ix2 q k :=
  funext fun a => Fin.ext (by match a with | ⟨0, _⟩ => rfl | ⟨1, _⟩ => rfl)

/-- The bias broadcast to all rows is read at its column. -/
theorem bidx_eq (p : Fin 50000) (q : Fin 512) : idx_main_v2 (idx_main_v3 (ix2 p q)) = ix1 q :=
  funext fun a => Fin.ext (by match a with | ⟨0, _⟩ => rfl)

/-- The reference's result is the layer. -/
theorem reference_eq (x0 : (⟨S50000x512, .f32⟩ : BufTy).Contents (Elt Ideal)) (x1 : (⟨S512x512, .f32⟩ : BufTy).Contents (Elt Ideal))
    (x2 : (⟨S512, .f32⟩ : BufTy).Contents (Elt Ideal)) :
    val_main_v7 (F := Ideal) x0 x1 x2 = layer x0 x1 x2 := by
  funext i
  obtain ⟨p, q, rfl⟩ : ∃ (p : Fin 50000) (q : Fin 512), i = ix2 p q := ⟨i 0, i 1, eq_ix2 i⟩
  rw [val_main_v7_apply, val_main_v6_apply, val_main_v5_apply, val_main_cst_apply, val_main_v4_apply, val_main_v1_apply,
    val_main_v3_apply, val_main_v2_apply, layer_apply]
  simp only [val_main_v0_apply, lidx_eq, ridx_eq, bidx_eq, Ideal.addf_def, Ideal.mulf_def, Ideal.ofBits_def]

end Cert.ReferenceIdeal.RefValue

end
-- ==== Proof.BodyPiece.lean ====
/-
  What one run of the kernel body leaves in the output block, as a function of the three input blocks.

  The body first copies its block of x and the whole of W into two work buffers (a change of number format only), then
  reads both work buffers back and uses them as the operands of the matrix product. Each work buffer is written whole
  before it is read, so what is read back is exactly what was just written, whatever the buffer held before: the
  output block is the body's arithmetic applied to the x block, the copied x block, the copied W and the bias row.
-/
import proofs.«175830_g12850542150405_cont_fleet_1523_13_alg».proof.Proof.Gen.KernelIdeal.Frame
import Idealize.ShloMosaic.Lib.Pipeline.Value

set_option maxRecDepth 16384

noncomputable section

namespace Cert.KernelIdeal.Piece

open Cert.KernelIdeal Cert.KernelIdeal.Gen Idealize.ShloMosaic Idealize.ShloMosaic.TcCoe Idealize.ShloMosaic.Tactic
  Idealize.SL.Sem

variable {F : FTy → Type} [FloatOps F]

/-- Every load and store of the body starts at the origin of its buffer. -/
theorem origin : (![0, 0] : Fin 2 → Nat) = fun _ => 0 := funext fun a => by fin_cases a <;> rfl

/-- The output block after the body: the stored value, with the two work buffers read back as the copies just made. -/
theorem out_block (c : Dev nD) (i : grid0.Coords) (arg1 : Memref sig .tc .vmem S5000x512 .f32) (harg1 : arg1.IsWhole)
    (arg2 : Memref sig .tc .vmem S512x512 .f32) (harg2 : arg2.IsWhole) (arg3 : Memref sig .tc .vmem S1x512 .f32) (harg3 : arg3.IsWhole)
    (arg4 : Memref sig .tc .vmem S5000x512 .f32) (harg4 : arg4.IsWhole) (arg5 : Memref sig .tc .vmem S5000x512 .bf16) (harg5 : arg5.IsWhole)
    (arg6 : Memref sig .tc .vmem S512x512 .bf16) (harg6 : arg6.IsWhole)
    (x0 : Vec F S5000x512 .f32) (x1 : Vec F S512x512 .f32) (x2 : Vec F S1x512 .f32) :
    out0_A_3 c i arg1 harg1 arg2 harg2 arg3 harg3 arg4 harg4 arg5 harg5 arg6 harg6 x0 x1 x2
      = k0_pay3 x0 (k0_pay1 x0) (k0_pay2 x1) x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero origin]
  rw [View.readCov_unit_zero (S := S5000x512) _ origin, View.readCov_unit_zero (S := S512x512) _ origin]
  simp only [View.readAt_eq_ld, harg1.read_unread, harg2.read_unread, harg3.read_unread,
    View.ld_unit_zero (S := S5000x512) origin, View.ld_unit_zero (S := S512x512) origin, View.ld_unit_zero (S := S1x512) origin]

end Cert.KernelIdeal.Piece

end
-- ==== Proof.LibRowsByRows.lean ====
/-
  A matrix product in which BOTH operands are contracted along their second axis: the [M, K] operand's row p against
  the [C, K] operand's row q, that is  A · Bᵀ. Read at the extended reals, into an accumulator of zeros, the element
  (p, q) of the result is the plain sum  ∑ k, A (p, k) * B (q, k).

  The lemma is stated for any dimension record of those shapes whose operand indices are the expected ones — four
  facts about the record (`hl0 … hr1`) that a program's literal record proves by unfolding; nothing else of the record
  is used. The one contracted axis is re-indexed by its coordinate `k : Fin K`.
-/
import Idealize.ShloMosaic.Lib.ValueIdx
import Idealize.ShloMosaic.PureOps.Ideal.Laws

noncomputable section

open scoped BigOperators

namespace RowsByRows

open Idealize.ShloMosaic Idealize.ShloMosaic.ValueIdx

/-- Element (p, q) of  A · Bᵀ  accumulated into zeros is  ∑ k, A (p, k) * B (q, k). -/
theorem matmul_zero_apply {M K C : Nat} {φ₁ φ₂ : FTy} (D : DotDims ⟨2, ![M, K]⟩ ⟨2, ![C, K]⟩ ⟨2, ![M, C]⟩)
    (hr : D.contr.rank = 1) (hs : D.contr.size ⟨0, by omega⟩ = K)
    (hl0 : ∀ (j : (⟨2, ![M, C]⟩ : Shape).Idx) (k : D.contr.Idx), (D.lhsIdx j k 0).val = (j 0).val)
    (hl1 : ∀ (j : (⟨2, ![M, C]⟩ : Shape).Idx) (k : D.contr.Idx), (D.lhsIdx j k 1).val = (k ⟨0, by omega⟩).val)
    (hr0 : ∀ (j : (⟨2, ![M, C]⟩ : Shape).Idx) (k : D.contr.Idx), (D.rhsIdx j k 0).val = (j 1).val)
    (hr1 : ∀ (j : (⟨2, ![M, C]⟩ : Shape).Idx) (k : D.contr.Idx), (D.rhsIdx j k 1).val = (k ⟨0, by omega⟩).val)
    (prec : Option ContractPrecision) (A : FVec Ideal ⟨2, ![M, K]⟩ φ₁) (B : FVec Ideal ⟨2, ![C, K]⟩ φ₂)
    (p : Fin M) (q : Fin C) :
    FloatOps.matmul D prec A B (constant ⟨2, ![M, C]⟩ .f32 0x00000000#32) (ix2 p q) = ∑ k : Fin K, A (ix2 p k) * B (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end RowsByRows

end
-- ==== Proof.BodyValue.lean ====
/-
  The body's arithmetic, entry by entry, on the extended reals.

  From a block X of 5000 rows of x, the whole weight W and the bias row B, the body stores at (p, q)

      (X (p, q) + c · ∑ k, X (p, k) · W (q, k)) + c · B (0, q).

  The two copies of X and W into the work buffers change the number format only, which on the extended reals changes
  nothing; the matrix product contracts the second axis of both operands (row p of X against row q of W) into an
  accumulator of zeros; the scaled bias row is repeated down the 5000 rows.
-/
import proofs.«175830_g12850542150405_cont_fleet_1523_13_alg».proof.Proof.Gen.KernelIdeal.Skeleton
import proofs.«175830_g12850542150405_cont_fleet_1523_13_alg».proof.Proof.LibRowsByRows
import proofs.«175830_g12850542150405_cont_fleet_1523_13_alg».proof.Proof.Spec
import Idealize.ShloMosaic.Lib.Pipeline.Value

noncomputable section

open scoped BigOperators

namespace Cert.KernelIdeal.BodyValue

open Cert.KernelIdeal Cert.KernelIdeal.Gen Idealize.ShloMosaic Idealize.ShloMosaic.ValueIdx ResidualLinear

/-! ## The product's index maps: the result's row picks the left operand's row, its column the right operand's ROW,
    and the contracted coordinate is the column of both. -/

theorem left_row (j : S5000x512.Idx) (k : dot_S5000x512_S512x512_S5000x512_1_1_0_0_n_n.contr.Idx) : (dot_S5000x512_S512x512_S5000x512_1_1_0_0_n_n.lhsIdx j k 0).val = (j 0).val := by
  unfold DotDims.lhsIdx
  rw [dif_neg (show ¬(0 : Fin S5000x512.rank) ∈ dot_S5000x512_S512x512_S5000x512_1_1_0_0_n_n.lhsBatch by decide),
    dif_pos (show (0 : Fin S5000x512.rank) ∈ dot_S5000x512_S512x512_S5000x512_1_1_0_0_n_n.lhsNonContracting by decide)]
  rfl

theorem left_col (j : S5000x512.Idx) (k : dot_S5000x512_S512x512_S5000x512_1_1_0_0_n_n.contr.Idx) : (dot_S5000x512_S512x512_S5000x512_1_1_0_0_n_n.lhsIdx j k 1).val = (k ⟨0, by decide⟩).val :=
  dot_S5000x512_S512x512_S5000x512_1_1_0_0_n_n.lhsIdx_val_of_single rfl j k

theorem right_row (j : S5000x512.Idx) (k : dot_S5000x512_S512x512_S5000x512_1_1_0_0_n_n.contr.Idx) : (dot_S5000x512_S512x512_S5000x512_1_1_0_0_n_n.rhsIdx j k 0).val = (j 1).val := by
  unfold DotDims.rhsIdx
  rw [dif_neg (show ¬(0 : Fin S512x512.rank) ∈ dot_S5000x512_S512x512_S5000x512_1_1_0_0_n_n.rhsBatch by decide),
    dif_pos (show (0 : Fin S512x512.rank) ∈ dot_S5000x512_S512x512_S5000x512_1_1_0_0_n_n.rhsNonContracting by decide)]
  rfl

theorem right_col (j : S5000x512.Idx) (k : dot_S5000x512_S512x512_S5000x512_1_1_0_0_n_n.contr.Idx) : (dot_S5000x512_S512x512_S5000x512_1_1_0_0_n_n.rhsIdx j k 1).val = (k ⟨0, by decide⟩).val :=
  dot_S5000x512_S512x512_S5000x512_1_1_0_0_n_n.rhsIdx_val_of_single rfl j k

/-- The product into zeros at (p, q): row p of the left operand against row q of the right one. -/
theorem product_apply (A : FVec Ideal S5000x512 .bf16) (B : FVec Ideal S512x512 .bf16) (p : Fin 5000) (q : Fin 512) :
    matmul dot_S5000x512_S512x512_S5000x512_1_1_0_0_n_n none A B (constant (F := Ideal) S5000x512 .f32 0x00000000#32) (ix2 p q)
      = ∑ k : Fin 512, A (ix2 p k) * B (ix2 q k) :=
  RowsByRows.matmul_zero_apply dot_S5000x512_S512x512_S5000x512_1_1_0_0_n_n rfl rfl left_row left_col right_row right_col none A B p q

/-- A row repeated down 5000 rows, read at (p, q), is the row's entry q. -/
theorem repeated_row (v : FVec Ideal S1x512 .f32) (p : Fin 5000) (q : Fin 512) :
    broadcastTo S5000x512 v broadcasts_S1x512_S5000x512 (ix2 p q) = v (ix2 0 q) :=
  broadcastTo_apply v broadcasts_S1x512_S5000x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The stored block at (p, q). -/
theorem stored_apply (X : Vec Ideal S5000x512 .f32) (W : Vec Ideal S512x512 .f32) (B : Vec Ideal S1x512 .f32)
    (p : Fin 5000) (q : Fin 512) :
    k0_pay3 (F := Ideal) X (k0_pay1 X) (k0_pay2 W) B (ix2 p q)
      = (X (ix2 p q) + tenth * ∑ k : Fin 512, X (ix2 p k) * W (ix2 q k)) + tenth * B (ix2 0 q) := by
  unfold k0_pay3 k0_pay1 k0_pay2
  dsimp only
  rw [shapeCast_self, shapeCast_self, shapeCast_self]
  rw [addf_apply, addf_apply, mulf_apply, broadcast_apply, product_apply, repeated_row, mulf_apply, broadcast_apply]
  rfl

end Cert.KernelIdeal.BodyValue

end
-- ==== Proof.Whole.lean ====
/-
  From blocks to the whole array.

  The grid has ten points; point t works on rows 5000·t … 5000·t + 4999 of x and of the output, and on the whole of W
  and of the bias row (b reshaped to one row of 512 before the launch). What point t writes back is therefore the
  layer of Spec.lean restricted to those rows: the body's entry (p, q) is

      (x (5000·t + p, q) + c · ∑ k, x (5000·t + p, k) · W (q, k)) + c · b q,

  which is the layer's entry by the law that adding c·s and then c·t is adding c·(s + t). The ten blocks of rows tile
  the 50000 rows (row r lies in block r / 5000), so the output array ends holding the layer everywhere.
-/
import proofs.«175830_g12850542150405_cont_fleet_1523_13_alg».proof.Proof.Gen.KernelIdeal.Value
import proofs.«175830_g12850542150405_cont_fleet_1523_13_alg».proof.Proof.BodyPiece
import proofs.«175830_g12850542150405_cont_fleet_1523_13_alg».proof.Proof.BodyValue
import proofs.«175830_g12850542150405_cont_fleet_1523_13_alg».proof.Proof.Spec
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
  Idealize.ShloMosaic.ValueIdx ResidualLinear
open Idealize.ShloMosaic.Pipeline (Dat)

variable (m : (ℓ : Loc nD τ sig) → Buf (Elt Ideal) ℓ) (ρ : Dev nD → PrngReg)

/-! ## The bias row the region finds -/

/-- Before the launch the host reshapes b to one row of 512. -/
theorem bias_row (c : Dev nD) :
    (V m c main_call0_v0 : S1x512.Idx → EReal) = shapeCast S1x512 (m ((c : Thread nD τ).loc main_arg2)) shapeCasts_S512_S1x512 := by
  dsimp only [Gen.V, Gen.hostOps0]; after_results; rfl

/-- Its entry (0, q) is b q. -/
theorem bias_row_apply (c : Dev nD) (q : Fin 512) :
    V m c main_call0_v0 (ix2 (0 : Fin 1) q) = m ((c : Thread nD τ).loc main_arg2) (ix1 q) := by
  rw [bias_row]
  exact shapeCast_apply _ shapeCasts_S512_S1x512 (ix2 (0 : Fin 1) q) (ix1 q) (by
    rw [Shape.rowMajor_val_two, Shape.rowMajor_val_one]; show q.val = 0 * 512 + q.val; omega)

/-! ## Where each window's block sits -/

/-- The printed index maps, decided over the ten points: the x window and the output window are at block row t, the
    weight and the bias row at the origin. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of point t's block of x is entry (5000·t + p, k) of x. -/
theorem x_block (t : Fin cfg0.N) (p : Fin 5000) (k : Fin 512) (r : Fin 50000) (hr : r.val = t.val * 5000 + p.val) :
    ((cfg0.win 0).blk t).view.emb (ix2 p k) = ix2 r k := by
  obtain ⟨e0, e1, -⟩ := block_index t
  funext a; apply Fin.ext
  match a with
  | ⟨0, _⟩ => show win0_0.index t (0 : Fin 2) * 5000 + 1 * p.val = r.val; omega
  | ⟨1, _⟩ => show win0_0.index t (1 : Fin 2) * 512 + 1 * k.val = k.val; omega

/-- The weight's one block is the weight. -/
theorem w_block (t : Fin cfg0.N) (q k : Fin 512) : ((cfg0.win 1).blk t).view.emb (ix2 q k) = ix2 q k := by
  obtain ⟨-, -, e2, e3, -⟩ := block_index t
  funext a; apply Fin.ext
  match a with
  | ⟨0, _⟩ => show win0_1.index t (0 : Fin 2) * 512 + 1 * q.val = q.val; omega
  | ⟨1, _⟩ => show win0_1.index t (1 : Fin 2) * 512 + 1 * k.val = k.val; omega

/-- The bias row's one block is the bias row. -/
theorem b_block (t : Fin cfg0.N) (q : Fin 512) : ((cfg0.win 2).blk t).view.emb (ix2 (0 : Fin 1) q) = ix2 (0 : Fin 1) q := by
  obtain ⟨-, -, -, -, e4, e5, -⟩ := block_index t
  funext a; apply Fin.ext
  match a with
  | ⟨0, _⟩ => show win0_2.index t (0 : Fin 2) * 1 + 1 * 0 = 0; omega
  | ⟨1, _⟩ => show win0_2.index t (1 : Fin 2) * 512 + 1 * q.val = q.val; omega

/-- Entry (p, q) of point t's output block is entry (5000·t + p, q) of the output. -/
theorem y_block (t : Fin cfg0.N) (p : Fin 5000) (q : Fin 512) (r : Fin 50000) (hr : r.val = t.val * 5000 + p.val) :
    ((cfg0.win 3).blk t).view.emb (ix2 p q) = ix2 r q := by
  obtain ⟨-, -, -, -, -, -, e6, e7⟩ := block_index t
  funext a; apply Fin.ext
  match a with
  | ⟨0, _⟩ => show win0_3.index t (0 : Fin 2) * 5000 + 1 * p.val = r.val; omega
  | ⟨1, _⟩ => show win0_3.index t (1 : Fin 2) * 512 + 1 * q.val = q.val; omega

/-! ## The blocks' entries as entries of the arguments -/

/-- Entry (p, k) of point t's block of x is x (5000·t + p, k). -/
theorem x_entry (c : Dev nD) (t : Fin cfg0.N) (p : Fin 5000) (k : Fin 512) (r : Fin 50000) (hr : r.val = t.val * 5000 + p.val) :
    iblk m c 0 t (ix2 p k) = m ((c : Thread nD τ).loc main_arg0) (ix2 r k) := by
  show V m c main_arg0 (((cfg0.win 0).blk t).view.emb (ix2 p k)) = _
  rw [x_block t p k r hr, V_main_arg0]

/-- Entry (q, k) of the staged weight is W (q, k). -/
theorem w_entry (c : Dev nD) (t : Fin cfg0.N) (q k : Fin 512) :
    iblk m c 1 t (ix2 q k) = m ((c : Thread nD τ).loc main_arg1) (ix2 q k) := by
  show V m c main_arg1 (((cfg0.win 1).blk t).view.emb (ix2 q k)) = _
  rw [w_block t q k, V_main_arg1]

/-- Entry (0, q) of the staged bias row is b q. -/
theorem b_entry (c : Dev nD) (t : Fin cfg0.N) (q : Fin 512) :
    iblk m c 2 t (ix2 (0 : Fin 1) q) = m ((c : Thread nD τ).loc main_arg2) (ix1 q) := by
  show V m c main_call0_v0 (((cfg0.win 2).blk t).view.emb (ix2 (0 : Fin 1) q)) = _
  rw [b_block t q, bias_row_apply]

/-! ## What a point writes back -/

/-- Point t writes back its block of rows of the layer. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Value.flushed3_A, Piece.out_block]
  funext j
  obtain ⟨p, q, rfl⟩ : ∃ (p : Fin 5000) (q : Fin 512), j = ix2 p q := ⟨j 0, j 1, eq_ix2 j⟩
  have ht : t.val < 10 := Nat.lt_of_lt_of_eq t.isLt (show cfg0.N = 10 from N_0)
  obtain ⟨r, hr⟩ : ∃ r : Fin 50000, r.val = t.val * 5000 + p.val := ⟨⟨t.val * 5000 + p.val, by have := p.isLt; omega⟩, rfl⟩
  refine (BodyValue.stored_apply (iblk m c 0 t) (iblk m c 1 t) (iblk m c 2 t) p q).trans ?_
  refine (layer_of_block (iblk m c 0 t) (iblk m c 1 t) (iblk m c 2 t)
    (m ((c : Thread nD τ).loc main_arg0)) (m ((c : Thread nD τ).loc main_arg1)) (m ((c : Thread nD τ).loc main_arg2)) p q r
    (fun k => x_entry m c t p k r hr) (fun k => w_entry m c t q k) (b_entry m c t q)).trans ?_
  show _ = layer _ _ _ (((cfg0.win 3).blk t).view.emb (ix2 p q))
  rw [y_block t p q r hr]

/-! ## The ten blocks tile the rows -/

/-- An index is in point t's output block iff each coordinate is in the block's range. -/
theorem mem_block (t : Fin cfg0.N) (i : S50000x512.Idx) :
    i ∈ ((cfg0.win 3).blk t).view.set ↔ ∀ a : Fin 2, win0_3.index t a * S5000x512.size a ≤ (i a).val ∧ (i a).val < win0_3.index t a * S5000x512.size a + S5000x512.size a := by
  show i ∈ ((View.whole main_v0).slice (win0_3.rect t)).set ↔ _
  rw [View.set_slice_whole, Rect.mem_set_unit]
  exact Iff.rfl

/-- Row r is in the block of point r / 5000. -/
theorem rows_tiled (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := block_index t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 512 ≤ (i 1).val ∧ (i 1).val < win0_3.index t (1 : Fin 2) * 512 + 512; omega

/-! ## The output array, and the run -/

/-- After the run the output array is the layer of the argument arrays. -/
theorem output_eq (c : Dev nD) : (dats m 0 c).arrAt 3 cfg0.N
    = layer (m ((c : Thread nD τ).loc main_arg0)) (m ((c : Thread nD τ).loc main_arg1)) (m ((c : Thread nD τ).loc main_arg2)) :=
  (dats m 0 c).arrAt_eq_of_cover 3 _ (fun t _ => flushed_eq m c t) rows_tiled

/-- Every weakly fair execution of the kernel's program ends with the result array at the layer and the arguments
    unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_eq m c), (h c).2⟩) (Value.run_blocks m ρ)

end Cert.KernelIdeal.Whole

end
-- ==== Proof.lean ====
/-
  The residual linear layer  y = x + c · (x · Wᵀ + b),  x of 50000 rows and 512 columns, W square of order 512, b of
  512 entries, c the single-precision number nearest to one tenth.

  The kernel walks ten blocks of 5000 rows. On each block it forms the product of the block with Wᵀ (both operands
  contracted along their second axis, into an accumulator of zeros; the operands pass through two work buffers in a
  narrower number format, which changes nothing on the extended reals) and stores
  (x + c · product) + c · b. The reference computes x + c · (product + b) with the product taken against the
  transposed weight. The two agree entry by entry: the transposed weight at (k, q) is W (q, k), and since c is a
  nonnegative real number, c · (s + t) = c · s + c · t for all extended reals s and t, so no finiteness of the inputs
  is needed. The ten blocks tile the rows, so the kernel's output array is the same function of x, W, b as the
  reference's result.

  Modules: Spec (the layer as one function, the value of c, the law), RefSide (the reference is the layer), BodyPiece
  (what one run of the body leaves in the output block), BodyValue (the body's arithmetic entry by entry),
  LibRowsByRows (a product of two operands both contracted along their second axis, entry by entry), Whole (blocks to
  the whole array, and the kernel's run).
-/
import proofs.«175830_g12850542150405_cont_fleet_1523_13_alg».proof.Defs
import proofs.«175830_g12850542150405_cont_fleet_1523_13_alg».proof.Proof.Gen.Kernel
import proofs.«175830_g12850542150405_cont_fleet_1523_13_alg».proof.Proof.Gen.Kernel.Skeleton
import proofs.«175830_g12850542150405_cont_fleet_1523_13_alg».proof.Proof.Gen.Kernel.Launch
import proofs.«175830_g12850542150405_cont_fleet_1523_13_alg».proof.Proof.Gen.Kernel.Points
import proofs.«175830_g12850542150405_cont_fleet_1523_13_alg».proof.Proof.Gen.Kernel.Frame
import proofs.«175830_g12850542150405_cont_fleet_1523_13_alg».proof.Proof.Gen.KernelIdeal
import proofs.«175830_g12850542150405_cont_fleet_1523_13_alg».proof.Proof.Gen.KernelIdeal.Skeleton
import proofs.«175830_g12850542150405_cont_fleet_1523_13_alg».proof.Proof.Gen.KernelIdeal.Launch
import proofs.«175830_g12850542150405_cont_fleet_1523_13_alg».proof.Proof.Gen.KernelIdeal.Points
import proofs.«175830_g12850542150405_cont_fleet_1523_13_alg».proof.Proof.Gen.KernelIdeal.Frame
import proofs.«175830_g12850542150405_cont_fleet_1523_13_alg».proof.Proof.Gen.ReferenceIdeal
import proofs.«175830_g12850542150405_cont_fleet_1523_13_alg».proof.Proof.Gen.Pre_finite_inputs
import proofs.«175830_g12850542150405_cont_fleet_1523_13_alg».proof.Proof.Gen.KernelIdeal.Value
import proofs.«175830_g12850542150405_cont_fleet_1523_13_alg».proof.Proof.Gen.ReferenceIdeal.Run
import proofs.«175830_g12850542150405_cont_fleet_1523_13_alg».proof.Proof.Gen.ReferenceIdeal.Read
import proofs.«175830_g12850542150405_cont_fleet_1523_13_alg».proof.Proof.Spec
import proofs.«175830_g12850542150405_cont_fleet_1523_13_alg».proof.Proof.RefSide
import proofs.«175830_g12850542150405_cont_fleet_1523_13_alg».proof.Proof.Whole
import Idealize.ShloMosaic.Adequacy
import Idealize.ShloMosaic.Init

noncomputable section

namespace Cert.Proof

open Idealize.ShloMosaic Idealize.ShloMosaic.TcCoe Idealize.SL.Sem ResidualLinear

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's output array and the reference's result are both the layer of the shared
    arguments. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
